-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x128 .f32) (main_arg1 : IVec S2x1600000 32) (main_arg2 : FVec F S32x128 .f32) (main_arg3 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x128 : Shape := ⟨2, ![5000, 128]⟩
abbrev S5000x1 : Shape := ⟨2, ![5000, 1]⟩
abbrev S5000x32 : Shape := ⟨2, ![5000, 32]⟩
abbrev S128x32 : Shape := ⟨2, ![128, 32]⟩
abbrev S1600000x32 : Shape := ⟨2, ![1600000, 32]⟩
abbrev S1x32 : Shape := ⟨2, ![1, 32]⟩

abbrev nBuf : Space → Nat
  | .hbm => 46
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S32x128, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x32, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S1x32, .f32⟩
  | .hbm, ⟨44, _⟩ => ⟨S100000x32, .f32⟩
  | .hbm, ⟨45, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S32x128, .f32⟩
  | .local _ .vmem, ⟨3, _⟩ => ⟨S5000x1, .f32⟩
  | .local _ .vmem, ⟨4, _⟩ => ⟨S5000x1, .f32⟩
  | .local _ .vmem, ⟨5, _⟩ => ⟨S5000x32, .f32⟩
  | .local _ .vmem, ⟨6, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S32x128 : Shape := ⟨2, ![32, 128]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x32 : Shape := ⟨2, ![128, 32]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S32x128, .f32⟩
  | .hbm, ⟨3, _⟩ => ⟨S32, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S128x32, .f32⟩
  | .hbm, ⟨45, _⟩ => ⟨S100000x32, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x32, .f32⟩
  | .hbm, ⟨55, _⟩ => ⟨S1700000x1, .f32⟩
  | .hbm, ⟨56, _⟩ => ⟨S1700000x32, .f32⟩
  | .hbm, ⟨57, _⟩ => ⟨S1700000x32, .f32⟩
  | .hbm, ⟨58, _⟩ => ⟨S_, .f32⟩
  | .hbm, ⟨59, _⟩ => ⟨S100000x32, .f32⟩
  | .hbm, ⟨60, _⟩ => ⟨S1700000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S32x128_S128x32_1_0 : S32x128.Transposes [1, 0] S128x32
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.KernelBody.lean ====
/-
  What the kernel body stores, read at one entry.

  The body loads a block of 5000 rows of `x` (5000 × 128), the whole weight matrix `W` (32 × 128) and the block's
  column of normalisations (5000 × 1); it multiplies the x-block by `Wᵀ` on the matrix unit into a zero accumulator (the
  two narrowing conversions before it are the identity on the extended reals) and scales row `p` of the product by
  the `p`-th normalisation. So the stored entry `(p, f)` is `(∑ₖ x(p,k) · W(f,k)) · scale(p)`.
-/
import proofs.«136501_j43052752175664_2_alg».proof.Proof.Gen.KernelIdeal.Skeleton
import proofs.«136501_j43052752175664_2_alg».proof.Proof.LibPlainDot
import proofs.«136501_j43052752175664_2_alg».proof.Proof.LibKeepdimsLayout
import Idealize.ShloMosaic.Lib.Pipeline.Value
import Idealize.ShloMosaic.Lib.ValueIdx

noncomputable section

open scoped BigOperators

namespace Cert.KernelBody

open Cert.KernelIdeal Cert.KernelIdeal.Gen Idealize.ShloMosaic Idealize.ShloMosaic.ValueIdx

/-- THE STORED ENTRY: the block's row `p` against `W`'s row `f`, times the row's scale. -/
theorem pay_apply (x0 : Vec Ideal S5000x128 .f32) (x1 : Vec Ideal S32x128 .f32) (x2 : Vec Ideal S5000x1 .f32)
    (p : Fin 5000) (f : Fin 32) :
    k0_pay1 (F := Ideal) x0 x1 x2 (ix2 p f)
      = (∑ k : Fin 128, x0 (ix2 p k) * x1 (ix2 f k)) * x2 (ix2 p (0 : Fin 1)) := by
  unfold k0_pay1
  show ((matmul (F := Ideal) dot_S5000x128_S128x32_S5000x32_1_0_0_1_n_n none (truncf (F := Ideal) .bf16 x0 bitsLt_bf16_f32)
        (transpose S128x32 [1, 0] (truncf (F := Ideal) .bf16 x1 bitsLt_bf16_f32) transposes_S32x128_p1_0_S128x32)
        (constant (F := Ideal) S5000x32 .f32 0x00000000#32)) (ix2 p f) : EReal)
      * ((broadcastTo S5000x32 (shapeCast S5000x1 x2 shapeCasts_S5000x1_S5000x1) broadcasts_S5000x1_S5000x32) (ix2 p f) : EReal) = _
  congr 1
  · refine (Cert.LibPlainDot.matmul_zero_apply (M := 5000) (K := 128) (N := 32)
      dot_S5000x128_S128x32_S5000x32_1_0_0_1_n_n.wf none _ _ p f).trans ?_
    refine Finset.sum_congr rfl fun k _ => ?_
    congr 1
    exact transpose_apply [1, 0] _ transposes_S32x128_p1_0_S128x32 (ix2 k f) (ix2 f k)
      (fun b => match b with | ⟨0, _⟩ => rfl | ⟨1, _⟩ => rfl)
  · rw [Cert.KernelIdeal.Val.broadcastTo_a1_ab_apply, shapeCast_self]

end Cert.KernelBody

end
-- ==== Proof.KernelArray.lean ====
/-
  The kernel's output array after the run.

  Grid point `t` (of 20) reads rows `5000·t … 5000·t + 4999` of `x` and of the column of normalisations, all of `W`,
  and writes rows `5000·t … 5000·t + 4999` of the output. By `KernelBody.pay_apply` the entry it writes at row `p` of
  its block is the scaled row entry of the ARRAY row `5000·t + p`, so every block written back is the restriction of
  one function `HS` of the arrays as the region finds them,
      HS(n, f) = (∑ₖ x(n,k) · W(f,k)) · scale(n),
  and the twenty blocks tile the output: the array ends holding `HS`.
-/
import proofs.«136501_j43052752175664_2_alg».proof.Proof.Gen.KernelIdeal.Frame
import proofs.«136501_j43052752175664_2_alg».proof.Proof.KernelBody
import Idealize.ShloMosaic.Lib.Pipeline.Value
import Idealize.ShloMosaic.Lib.ValueIdx

set_option maxRecDepth 16384

noncomputable section

open scoped BigOperators

namespace Cert.KernelArray

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

-- the arrays as the region finds them are folds over the host prefix (a scatter over all the edges among them): they
-- are compared here only as arrays, never computed
set_option allowUnsafeReducibility true in
attribute [local irreducible] Cert.KernelIdeal.Gen.V

/-- The scaled transformed feature `f` of node `n`. -/
def hsAt (a0 : S100000x128.Idx → EReal) (a1 : S32x128.Idx → EReal) (a2 : S100000x1.Idx → EReal)
    (n : Fin 100000) (f : Fin 32) : EReal :=
  (∑ k : Fin 128, a0 (ix2 n k) * a1 (ix2 f k)) * a2 (ix2 n (0 : Fin 1))

/-- … as an array. -/
def HS (a0 : S100000x128.Idx → Elt Ideal .f32) (a1 : S32x128.Idx → Elt Ideal .f32) (a2 : S100000x1.Idx → Elt Ideal .f32) :
    S100000x32.Idx → Elt Ideal .f32 :=
  fun i => hsAt a0 a1 a2 ⟨(i 0).val, idx2_lt0 i⟩ ⟨(i 1).val, idx2_lt1 i⟩

theorem hz : (![0, 0] : Fin 2 → Nat) = fun _ => 0 := funext fun a => by fin_cases a <;> rfl

/-- The printed index maps, decided over the grid: the blocks of `x`, of the normalisations and of the output move
    together down the rows; `W`'s block does not move; no block moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 19 :=
  (by decide +kernel : ∀ t : Fin grid0.N, _)

/-- Every block of rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- One entry, over variables: if the loaded blocks hold, at the entry's row and column, what the arrays hold at
    the array row and column, the body's stored entry is `HS` of the arrays there. -/
theorem pay_eq_HS (A0 : S100000x128.Idx → Elt Ideal .f32) (A1 : S32x128.Idx → Elt Ideal .f32)
    (A2 : S100000x1.Idx → Elt Ideal .f32)
    (x0 : Vec Ideal S5000x128 .f32) (x1 : Vec Ideal S32x128 .f32) (x2 : Vec Ideal S5000x1 .f32)
    (jb : S5000x32.Idx) (i : S100000x32.Idx)
    (h0 : ∀ k : Fin 128, x0 (ix2 ⟨(jb 0).val, idx2_lt0 jb⟩ k) = A0 (ix2 ⟨(i 0).val, idx2_lt0 i⟩ k))
    (h1 : ∀ k : Fin 128, x1 (ix2 ⟨(jb 1).val, idx2_lt1 jb⟩ k) = A1 (ix2 ⟨(i 1).val, idx2_lt1 i⟩ k))
    (h2 : x2 (ix2 ⟨(jb 0).val, idx2_lt0 jb⟩ (0 : Fin 1)) = A2 (ix2 ⟨(i 0).val, idx2_lt0 i⟩ (0 : Fin 1))) :
    k0_pay1 (F := Ideal) x0 x1 x2 jb = HS A0 A1 A2 i := by
  have hjb : jb = ix2 ⟨(jb 0).val, idx2_lt0 jb⟩ ⟨(jb 1).val, idx2_lt1 jb⟩ := eq_ix2 jb
  refine ((congrArg (k0_pay1 (F := Ideal) x0 x1 x2) hjb).trans (Cert.KernelBody.pay_apply x0 x1 x2 _ _)).trans ?_
  unfold HS hsAt
  rw [h2]
  refine congrArg₂ (· * ·) (Finset.sum_congr rfl fun k _ => ?_) rfl
  rw [h0, h1]

/-- A block read through its view is the array at the block's embedded index — for ANY array contents (the array
    stays a variable here, so nothing about it is ever computed). -/
theorem read3_apply (c : Dev nD) (G : Buf (Elt Ideal) ((c : Thread nD τ).loc main_v15)) (t : Fin cfg0.N)
    (j : ((cfg0.win 3).xblock (grid0.coords t)).Idx) :
    ((cfg0.win 3).blk t).view.read (Elt Ideal) G j = G (((cfg0.win 3).blk t).view.emb j) := rfl
theorem read0_apply (c : Dev nD) (A : Buf (Elt Ideal) ((c : Thread nD τ).loc main_arg0)) (t : Fin cfg0.N)
    (y : ((cfg0.win 0).xblock (grid0.coords t)).Idx) :
    ((cfg0.win 0).blk t).view.read (Elt Ideal) A y = A (((cfg0.win 0).blk t).view.emb y) := rfl
theorem read1_apply (c : Dev nD) (A : Buf (Elt Ideal) ((c : Thread nD τ).loc main_arg2)) (t : Fin cfg0.N)
    (y : ((cfg0.win 1).xblock (grid0.coords t)).Idx) :
    ((cfg0.win 1).blk t).view.read (Elt Ideal) A y = A (((cfg0.win 1).blk t).view.emb y) := rfl
theorem read2_apply (c : Dev nD) (A : Buf (Elt Ideal) ((c : Thread nD τ).loc main_v14)) (t : Fin cfg0.N)
    (y : ((cfg0.win 2).xblock (grid0.coords t)).Idx) :
    ((cfg0.win 2).blk t).view.read (Elt Ideal) A y = A (((cfg0.win 2).blk t).view.emb y) := rfl

/-- The x-block at a point is the array `x` at the block's embedded index. -/
theorem iblk0_apply (c : Dev nD) (t : Fin cfg0.N) (y : ((cfg0.win 0).xblock (grid0.coords t)).Idx) :
    iblk m c 0 t y = V m c main_arg0 (((cfg0.win 0).blk t).view.emb y) := read0_apply c (V m c main_arg0) t y
/-- The W-block likewise. -/
theorem iblk1_apply (c : Dev nD) (t : Fin cfg0.N) (y : ((cfg0.win 1).xblock (grid0.coords t)).Idx) :
    iblk m c 1 t y = V m c main_arg2 (((cfg0.win 1).blk t).view.emb y) := read1_apply c (V m c main_arg2) t y
/-- The block of normalisations likewise. -/
theorem iblk2_apply (c : Dev nD) (t : Fin cfg0.N) (y : ((cfg0.win 2).xblock (grid0.coords t)).Idx) :
    iblk m c 2 t y = V m c main_v14 (((cfg0.win 2).blk t).view.emb y) := read2_apply c (V m c main_v14) t y

/-- WHAT POINT `t` WRITES BACK is block `t` of `HS` of the arrays as the region finds them. -/
theorem flushed_eq (c : Dev nD) (t : Fin cfg0.N) :
    (dats m 0 c).flushed 3 t
      = ((cfg0.win 3).blk t).view.read (Elt Ideal) (HS (V m c main_arg0) (V m c main_arg2) (V m c main_v14)) := by
  show (cfg0.win 3).cut (grid0.coords t) ((dats m 0 c).after 3 t) = _
  rw [after0_3]
  unfold out0_3
  rw [View.canon_unit_zero hz]
  simp only [View.ld_unit_zero (S := S5000x128) hz, View.ld_unit_zero (S := S32x128) hz, View.ld_unit_zero (S := S5000x1) hz]
  obtain ⟨e00, e01, e10, e11, e20, e21, e31, e30⟩ := idx_facts t
  funext j
  rw [read3_apply c]
  refine pay_eq_HS (V m c main_arg0) (V m c main_arg2) (V m c main_v14) (iblk m c 0 t) (iblk m c 1 t) (iblk m c 2 t)
    ((cfg0.win 3).xinj (grid0.coords t) j) (((cfg0.win 3).blk t).view.emb j) (fun k => ?_) (fun k => ?_) ?_
  · refine (iblk0_apply m c t _).trans (congrArg (V m c main_arg0) (funext fun a => Fin.ext ?_))
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  · refine (iblk1_apply m c t _).trans (congrArg (V m c main_arg2) (funext fun a => Fin.ext ?_))
    match a with
    | ⟨0, _⟩ =>
      show win0_1.index t (0 : Fin 2) * 32 + 1 * (j 1).val = win0_3.index t (1 : Fin 2) * 32 + 1 * (j 1).val
      omega
    | ⟨1, _⟩ =>
      show win0_1.index t (1 : Fin 2) * 128 + 1 * k.val = k.val
      omega
  · refine (iblk2_apply m c t _).trans (congrArg (V m c main_v14) (funext fun a => Fin.ext ?_))
    match a with
    | ⟨0, _⟩ =>
      show win0_2.index t (0 : Fin 2) * 5000 + 1 * (j 0).val = win0_3.index t (0 : Fin 2) * 5000 + 1 * (j 0).val
      omega
    | ⟨1, _⟩ =>
      show win0_2.index t (1 : Fin 2) * 1 + 1 * 0 = 0
      omega

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v15).slice (win0_3.rect t)).set ↔ _
  rw [View.set_slice_whole, Rect.mem_set_unit]
  exact Iff.rfl

/-- The twenty blocks of rows cover the output array: row `r` is in the block of point `r / 5000`. -/
theorem cover (i : S100000x32.Idx) :
    ∃ t : Fin cfg0.N, (cfg0.win 3).flush t = true ∧ i ∈ ((cfg0.win 3).blk t).view.set := by
  have hi0 : (i 0).val < 100000 := idx2_lt0 i
  have hi1 : (i 1).val < 32 := idx2_lt1 i
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 32 ≤ (i 1).val ∧ (i 1).val < win0_3.index t (1 : Fin 2) * 32 + 32
    omega

/-- THE OUTPUT ARRAY after the run is `HS` of the arrays as the region finds them. -/
theorem final (c : Dev nD) :
    (dats m 0 c).arrAt 3 cfg0.N = HS (V m c main_arg0) (V m c main_arg2) (V m c main_v14) :=
  (dats m 0 c).arrAt_eq_of_cover 3 _ (fun t _ => flushed_eq m c t) cover

end Cert.KernelArray

end
-- ==== Proof.LibAggregateLinear.lean ====
import Idealize.ShloMosaic.PureOps.Ideal

/-!
# Linearity of neighbourhood aggregation over finite extended reals

A graph-convolution layer forms, for each node, a weighted sum of rows of a feature matrix
over a finite set of neighbours, adds a weighted copy of the node's own row, and multiplies
the result by a weight matrix.  Because matrix multiplication is linear, aggregating first and
multiplying afterwards gives the same numbers as multiplying every row first and aggregating
afterwards.  On the extended reals `[-∞, +∞]` multiplication does not distribute over addition
at the infinities, so the statement is made for entries that are coercions of real numbers,
where both sides are the coercion of one and the same real expression.
-/

namespace Cert.Lib.AggregateLinear

open scoped BigOperators

/-- The inclusion of the reals into the extended reals commutes with finite sums. -/
theorem coe_sum {ι : Type} (S : Finset ι) (f : ι → ℝ) :
    ((∑ i ∈ S, f i : ℝ) : EReal) = ∑ i ∈ S, ((f i : ℝ) : EReal) := by
  classical
  induction S using Finset.induction_on with
  | empty => simp
  | insert a s ha ih =>
    rw [Finset.sum_insert ha, Finset.sum_insert ha, EReal.coe_add, ih]

/-- The real identity behind the layer: for real matrices,
    `∑ₖ (∑ₑ X e k · n e + x0 k · s) · w k = ∑ₑ (∑ₖ X e k · w k) · n e + (∑ₖ x0 k · w k) · s`
    (distribute, then exchange the two finite sums). -/
theorem aggregate_then_transform_real {ι κ : Type} [Fintype κ] (S : Finset ι)
    (X : ι → κ → ℝ) (n : ι → ℝ) (x0 : κ → ℝ) (s : ℝ) (w : κ → ℝ) :
    (∑ k : κ, ((∑ e ∈ S, X e k * n e) + x0 k * s) * w k)
      = (∑ e ∈ S, (∑ k : κ, X e k * w k) * n e) + (∑ k : κ, x0 k * w k) * s := by
  simp only [add_mul, Finset.sum_add_distrib, Finset.sum_mul]
  rw [Finset.sum_comm]
  congr 1
  · refine Finset.sum_congr rfl (fun e _ => Finset.sum_congr rfl (fun k _ => ?_))
    ring
  · refine Finset.sum_congr rfl (fun k _ => ?_)
    ring

/-- Aggregating the rows `X e` over the neighbours `e ∈ S` with weights `n e`, adding the self
    term `x0` with weight `s`, and then taking the inner product with a column `w` equals taking
    the inner product of every row with `w` first and aggregating the resulting scalars.  All
    entries are real numbers viewed as extended reals, so both sides are the coercion of the
    same real number. -/
theorem aggregate_then_transform {ι κ : Type} [Fintype κ] (S : Finset ι) (X : ι → κ → ℝ)
    (n : ι → ℝ) (x0 : κ → ℝ) (s : ℝ) (w : κ → ℝ) :
    (∑ k : κ, ((((0 : EReal) + ∑ e ∈ S, ((X e k : ℝ) : EReal) * ((n e : ℝ) : EReal))
        + ((x0 k : ℝ) : EReal) * ((s : ℝ) : EReal)) * ((w k : ℝ) : EReal)))
    = ((0 : EReal) + ∑ e ∈ S, (∑ k : κ, ((X e k : ℝ) : EReal) * ((w k : ℝ) : EReal))
        * ((n e : ℝ) : EReal))
      + (∑ k : κ, ((x0 k : ℝ) : EReal) * ((w k : ℝ) : EReal)) * ((s : ℝ) : EReal) := by
  simp only [zero_add, ← EReal.coe_mul, ← coe_sum, ← EReal.coe_add]
  exact congrArg _ (aggregate_then_transform_real S X n x0 s w)

/-- A product of two real numbers, formed in the extended reals, is again a real number. -/
theorem coe_mul_coe_real (a b : ℝ) :
    ∃ r : ℝ, ((a : ℝ) : EReal) * ((b : ℝ) : EReal) = ((r : ℝ) : EReal) :=
  ⟨a * b, (EReal.coe_mul a b).symm⟩

/-- A sum of two real numbers, formed in the extended reals, is again a real number. -/
theorem coe_add_coe_real (a b : ℝ) :
    ∃ r : ℝ, ((a : ℝ) : EReal) + ((b : ℝ) : EReal) = ((r : ℝ) : EReal) :=
  ⟨a + b, (EReal.coe_add a b).symm⟩

/-- A finite sum of real numbers, formed in the extended reals, is again a real number. -/
theorem sum_coe_real {ι : Type} (S : Finset ι) (f : ι → ℝ) :
    ∃ r : ℝ, (∑ i ∈ S, ((f i : ℝ) : EReal)) = ((r : ℝ) : EReal) :=
  ⟨∑ i ∈ S, f i, (coe_sum S f).symm⟩

/-- On a real argument the reciprocal square root is decided by the sign of the argument. -/
theorem rsqrt_coe (r : ℝ) :
    Idealize.ShloMosaic.Ideal.rsqrt ((r : ℝ) : EReal)
      = if r < 0 then ⊥ else if r = 0 then ⊤ else (((Real.sqrt r)⁻¹ : ℝ) : EReal) := rfl

/-- The reciprocal square root of a positive real number is the real number `1 / √r`. -/
theorem rsqrt_coe_of_pos {r : ℝ} (hr : 0 < r) :
    Idealize.ShloMosaic.Ideal.rsqrt ((r : ℝ) : EReal) = (((Real.sqrt r)⁻¹ : ℝ) : EReal) := by
  rw [rsqrt_coe, if_neg (not_lt.mpr hr.le), if_neg hr.ne']

/-- Counting the elements of a finite set by adding a one for each, and then adding one more,
    gives the real number `card S + 1`. -/
theorem count_add_one_eq {ι : Type} (S : Finset ι) :
    (((0 : EReal) + ∑ _j ∈ S, (1 : EReal)) + 1) = (((S.card : ℝ) + 1 : ℝ) : EReal) := by
  have h1 : (∑ _j ∈ S, (1 : EReal)) = (((S.card : ℝ) : ℝ) : EReal) := by
    have := coe_sum S (fun _ => (1 : ℝ))
    simp only [Finset.sum_const, nsmul_eq_mul, mul_one, EReal.coe_one] at this
    rw [this, Finset.sum_const]
  rw [zero_add, h1, EReal.coe_add, EReal.coe_one]

/-- The degree normalisation `1 / √(deg + 1)`, with the degree counted as a sum of ones over the
    neighbours, is a (positive) real number: the argument `card S + 1` is a positive real. -/
theorem rsqrt_count_add_one_real {ι : Type} (S : Finset ι) :
    ∃ r : ℝ, Idealize.ShloMosaic.Ideal.rsqrt (((0 : EReal) + ∑ _j ∈ S, (1 : EReal)) + 1)
      = ((r : ℝ) : EReal) := by
  have hpos : (0 : ℝ) < (S.card : ℝ) + 1 := by positivity
  exact ⟨(Real.sqrt ((S.card : ℝ) + 1))⁻¹, by rw [count_add_one_eq, rsqrt_coe_of_pos hpos]⟩

end Cert.Lib.AggregateLinear
-- ==== Proof.GcnLaw.lean ====
/-
  The algebra of one graph-convolution row.

  Fix a node `n` and an output feature. Write `h v` for the transformed feature of node `v` and `d v` for its degree
  normalisation `deg(v)^(-1/2)`, both real numbers, `S` for the set of edges that point at `n` and `g e` for the source node
  of edge `e`. The reference sums, over the edges into `n` and over `n`'s own self-loop, the message
  `h(src) · (d(src) · d(n))`; the kernel scales every row by its own normalisation first, sums the scaled rows
  `h(src) · d(src)` over the edges, adds `n`'s own scaled row, and multiplies the total by `d(n)` once:

      d(n) · ((0 + ∑_{e ∈ S} h(g e) · d(g e)) + h(n) · d(n))  =  0 + (∑_{e ∈ S} h(g e) · (d(g e) · d(n)) + h(n) · (d(n) · d(n))).

  This is distributivity, which the extended reals do not have at the infinities; it is stated for real entries, where
  both sides are the inclusion of one real number. The bias added afterwards is any extended real.

  Also here: a filtered sum over `E + N` indices is the filtered sum over the first `E` plus the one over the last `N`
  (the edges, then the self-loops), and the two ways of counting a degree agree.
-/
import Idealize.ShloMosaic.PureOps.Ideal
import proofs.«136501_j43052752175664_2_alg».proof.Proof.LibAggregateLinear

noncomputable section

open scoped BigOperators

namespace Cert.GcnLaw

open Cert.Lib.AggregateLinear

/-- THE LAW: scaling by the target's normalisation once, after the sum, equals scaling every message by it. -/
theorem scale_after_sum {ι ν : Type} (S : Finset ι) (g : ι → ν) (h d : ν → ℝ) (n : ν) (b : EReal) :
    ((d n : ℝ) : EReal) * (((0 : EReal) + ∑ e ∈ S, ((h (g e) : ℝ) : EReal) * ((d (g e) : ℝ) : EReal))
        + ((h n : ℝ) : EReal) * ((d n : ℝ) : EReal)) + b
      = ((0 : EReal) + ((∑ e ∈ S, ((h (g e) : ℝ) : EReal) * (((d (g e) : ℝ) : EReal) * ((d n : ℝ) : EReal)))
        + ((h n : ℝ) : EReal) * (((d n : ℝ) : EReal) * ((d n : ℝ) : EReal)))) + b := by
  congr 1
  simp only [zero_add, ← EReal.coe_mul, ← coe_sum, ← EReal.coe_add]
  congr 1
  rw [mul_add, Finset.mul_sum]
  congr 1
  · exact Finset.sum_congr rfl fun e _ => by ring
  · ring

/-- A filtered sum over `E + N` indices: the first `E`, then the last `N`. -/
theorem sum_filter_add {M : Type} [AddCommMonoid M] {E N : Nat} (p : Fin (E + N) → Prop) [DecidablePred p]
    (f : Fin (E + N) → M) :
    ∑ i ∈ Finset.univ.filter p, f i
      = ∑ e ∈ Finset.univ.filter (fun e : Fin E => p (Fin.castAdd N e)), f (Fin.castAdd N e)
        + ∑ j ∈ Finset.univ.filter (fun j : Fin N => p (Fin.natAdd E j)), f (Fin.natAdd E j) := by
  rw [Finset.sum_filter, Fin.sum_univ_add, Finset.sum_filter, Finset.sum_filter]

/-- A filtered sum whose filter singles out one index is the summand there. -/
theorem sum_filter_single {M : Type} [AddCommMonoid M] {N : Nat} (p : Fin N → Prop) [DecidablePred p] (n : Fin N)
    (hp : ∀ j, p j ↔ j = n) (f : Fin N → M) : ∑ j ∈ Finset.univ.filter p, f j = f n := by
  have : Finset.univ.filter p = {n} := by
    ext j; simp [hp]
  rw [this, Finset.sum_singleton]

/-- Counting a degree: a one for each edge into the node, and one more for its self-loop, is the real `card + 1`;
    it is positive. -/
theorem degree_real {ι : Type} (S : Finset ι) :
    (((0 : EReal) + ∑ _e ∈ S, (1 : EReal)) + 1) = (((S.card : ℝ) + 1 : ℝ) : EReal) := count_add_one_eq S

/-- The other way of counting it: the ones of the edges and the one of the self-loop in one sum from zero. -/
theorem degree_one_sum {ι : Type} (S : Finset ι) :
    ((0 : EReal) + ((∑ _e ∈ S, (1 : EReal)) + 1)) = (((0 : EReal) + ∑ _e ∈ S, (1 : EReal)) + 1) := by
  rw [zero_add, zero_add]

end Cert.GcnLaw

end
-- ==== Proof.Layer.lean ====
/-
  One row of the graph-convolution layer, in the kernel's arrangement and in the reference's, and their equality.

  Nodes are numbered below 100000, edges below 1600000; an edge `e` carries a source word and a target word (32-bit
  integers, any values). A target word counts for node `n` exactly when, read as a signed integer, it IS `n` (a
  scatter drops everything else); a source word is first wrapped as jnp wraps a negative index (`v + 100000` when
  `v < 0`) and then clamped into the node range (a gather clamps). The reference appends one self-loop per node to the
  edge list, so its lists have 1600000 + 100000 entries: entry `1600000 + j` has source and target `j`.

  * degree: the kernel counts the edges into `n` and adds one; the reference counts the entries into `n` of the longer
    list. The self-loop of `n` is the one extra entry, so the two degrees agree, and both are the real `card + 1 ≥ 1`.
  * normalisation: `deg^(-1/2)` where `deg > 0`, else 0; by the above it is a positive real.
  * the row: with `lin v` the transformed feature `∑ₖ x(v,k) · W(f,k)`,
      kernel:     norm(n) · ((0 + ∑_{e → n} lin(src e) · norm(src e)) + lin(n) · norm(n)) + bias
      reference:  (0 + ∑_{e' → n} lin(src' e') · (norm(src' e') · norm(dst' e'))) + bias.
    Splitting the reference's sum into the edges and the one self-loop of `n`, and using that an entry into `n` has
    `dst' e' = n`, the two are the two sides of `GcnLaw.scale_after_sum`. That law moves a factor across a sum, so it
    needs real entries: `x` and `W` are assumed real (the bias is not).
-/
import Idealize.ShloMosaic.PureOps.Ideal
import Idealize.ShloMosaic.PureOps.Ideal.Laws
import Idealize.ShloMosaic.Lib.ValueIdx
import proofs.«136501_j43052752175664_2_alg».proof.Proof.GcnLaw

noncomputable section

open scoped BigOperators

namespace Cert.Layer

open Idealize.ShloMosaic Idealize.ShloMosaic.ValueIdx Cert.GcnLaw Cert.Lib.AggregateLinear

/-! ## Index words -/

/-- jnp's wrap of a negative index into an axis of extent 100000. -/
def wrap (v : BitVec 32) : BitVec 32 := Scalar.select (IntOp.cmpi .slt v 0#32) (IntOp.addi v 100000#32) v

/-- The node a gather reads for the word `v`: signed, clamped into the node range. -/
def rowAt (v : BitVec 32) : Fin 100000 := ⟨min v.toInt.toNat (100000 - 1), by omega⟩

/-- A non-negative word is not wrapped. -/
theorem wrap_of_nonneg {v : BitVec 32} (h : 0 ≤ v.toInt) : wrap v = v := by
  unfold wrap
  have hs : v.slt 0#32 = false := by
    show decide (v.toInt < (0#32 : BitVec 32).toInt) = false
    rw [BitVec.toInt_zero]
    exact decide_eq_false (by omega)
  have hc : IntOp.cmpi .slt v 0#32 = 0#1 := by
    show BitVec.ofBool (v.slt 0#32) = 0#1
    rw [hs]; rfl
  rw [hc]
  exact if_neg (by decide)

/-- A word that is a node number reads that node. -/
theorem rowAt_of_eq {v : BitVec 32} {n : Fin 100000} (h : v.toInt = (n.val : Int)) : rowAt v = n := by
  apply Fin.ext
  show min v.toInt.toNat (100000 - 1) = n.val
  have := n.isLt
  omega

/-- … also after the wrap. -/
theorem rowAt_wrap_of_eq {v : BitVec 32} {n : Fin 100000} (h : v.toInt = (n.val : Int)) : rowAt (wrap v) = n := by
  rw [wrap_of_nonneg (by omega)]
  exact rowAt_of_eq h

/-- The word of a node number, read signed, is that number. -/
theorem toInt_ofNat_node (j : Nat) (hj : j < 100000) : (BitVec.ofNat 32 j).toInt = (j : Int) := by
  have h1 : (BitVec.ofNat 32 j).toNat = j := by
    rw [BitVec.toNat_ofNat]; exact Nat.mod_eq_of_lt (by omega)
  rw [BitVec.toInt_eq_toNat_of_lt (by rw [h1]; omega), h1]

/-! ## The two rows -/

/-- The entries of a target list that count for node `n`. -/
abbrev into {M : Nat} (dst : Fin M → BitVec 32) (n : Fin 100000) : Finset (Fin M) :=
  Finset.univ.filter fun e => (dst e).toInt = (n.val : Int)

/-- The normalisation of a degree: `deg^(-1/2)` where `deg > 0`, else 0. -/
def norm (deg : EReal) : EReal := Scalar.select (Ideal.cmp .ogt deg 0) (Ideal.rsqrt deg) 0

/-- The kernel's degree: the edges into `n`, and one more. -/
def degK {M : Nat} (dst : Fin M → BitVec 32) (n : Fin 100000) : EReal := ((0 : EReal) + ∑ _e ∈ into dst n, (1 : EReal)) + 1

/-- The reference's degree: the entries into `n` of the list with the self-loops appended. -/
def degR {M : Nat} (dst' : Fin M → BitVec 32) (n : Fin 100000) : EReal := (0 : EReal) + ∑ _e ∈ into dst' n, (1 : EReal)

/-- The transformed feature `f` of node `v`. -/
def lin (x : (⟨2, ![100000, 128]⟩ : Shape).Idx → EReal) (W : (⟨2, ![32, 128]⟩ : Shape).Idx → EReal)
    (v : Fin 100000) (f : Fin 32) : EReal := ∑ k : Fin 128, x (ix2 v k) * W (ix2 f k)

/-- The kernel's row entry. -/
def outK {M : Nat} (x : (⟨2, ![100000, 128]⟩ : Shape).Idx → EReal) (W : (⟨2, ![32, 128]⟩ : Shape).Idx → EReal) (bias : EReal)
    (src dst : Fin M → BitVec 32) (n : Fin 100000) (f : Fin 32) : EReal :=
  norm (degK dst n) * (((0 : EReal) + ∑ e ∈ into dst n,
      lin x W (rowAt (wrap (src e))) f * norm (degK dst (rowAt (wrap (src e))))) + lin x W n f * norm (degK dst n)) + bias

/-- The reference's row entry. -/
def outR {M : Nat} (x : (⟨2, ![100000, 128]⟩ : Shape).Idx → EReal) (W : (⟨2, ![32, 128]⟩ : Shape).Idx → EReal) (bias : EReal)
    (src' dst' : Fin M → BitVec 32) (n : Fin 100000) (f : Fin 32) : EReal :=
  ((0 : EReal) + ∑ e ∈ into dst' n, lin x W (rowAt (wrap (src' e))) f
      * (norm (degR dst' (rowAt (wrap (src' e)))) * norm (degR dst' (rowAt (wrap (dst' e)))))) + bias

/-! ## Their equality -/

section
variable (x : (⟨2, ![100000, 128]⟩ : Shape).Idx → EReal) (W : (⟨2, ![32, 128]⟩ : Shape).Idx → EReal) (bias : EReal)
  (src dst : Fin 1600000 → BitVec 32) (src' dst' : Fin (1600000 + 100000) → BitVec 32)
  (hs : ∀ e, src' (Fin.castAdd 100000 e) = src e) (hsl : ∀ j : Fin 100000, src' (Fin.natAdd 1600000 j) = BitVec.ofNat 32 j.val)
  (hd : ∀ e, dst' (Fin.castAdd 100000 e) = dst e) (hdl : ∀ j : Fin 100000, dst' (Fin.natAdd 1600000 j) = BitVec.ofNat 32 j.val)

include hdl in
/-- Among the self-loops, the one into node `v` is `v`'s own. -/
theorem loop_into (v j : Fin 100000) : (dst' (Fin.natAdd 1600000 j)).toInt = (v.val : Int) ↔ j = v := by
  rw [hdl, toInt_ofNat_node j.val j.isLt]
  constructor
  · intro h; exact Fin.ext (by exact_mod_cast h)
  · rintro rfl; rfl

include hd hdl in
/-- The two degrees agree. -/
theorem degR_eq_degK (v : Fin 100000) : degR dst' v = degK dst v := by
  unfold degR degK
  rw [sum_filter_add (E := 1600000) (N := 100000), sum_filter_single _ v (loop_into dst' hdl v)]
  simp only [hd]
  exact degree_one_sum _

/-- The normalisation of a kernel degree is a real number. -/
theorem norm_degK_real (v : Fin 100000) : ∃ r : ℝ, norm (degK dst v) = r := by
  unfold norm degK
  rw [degree_real]
  have hpos : (0 : ℝ) < ((into dst v).card : ℝ) + 1 := by positivity
  have hc : Ideal.cmp .ogt ((((into dst v).card : ℝ) + 1 : ℝ) : EReal) 0 = 1#1 := by
    show BitVec.ofBool (decide ((0 : EReal) < ((((into dst v).card : ℝ) + 1 : ℝ) : EReal))) = 1#1
    rw [decide_eq_true (EReal.coe_pos.mpr hpos)]; rfl
  rw [hc, select_one, rsqrt_coe_of_pos hpos]
  exact ⟨_, rfl⟩

include hs hsl hd hdl in
/-- THE TWO ROWS AGREE, for real `x` and `W`. -/
theorem outK_eq_outR (hx : ∀ i, ∃ r : ℝ, x i = r) (hW : ∀ i, ∃ r : ℝ, W i = r) (n : Fin 100000) (f : Fin 32) :
    outK x W bias src dst n f = outR x W bias src' dst' n f := by
  classical
  choose xr hxr using hx
  choose Wr hWr using hW
  choose dr hdr using norm_degK_real dst
  have hlin : ∀ v g, lin x W v g = ((∑ k : Fin 128, xr (ix2 v k) * Wr (ix2 g k) : ℝ) : EReal) := by
    intro v g
    unfold lin
    rw [coe_sum]
    exact Finset.sum_congr rfl fun k _ => by rw [hxr, hWr, EReal.coe_mul]
  have hself : rowAt (wrap (BitVec.ofNat 32 n.val)) = n := rowAt_wrap_of_eq (toInt_ofNat_node n.val n.isLt)
  unfold outK outR
  rw [sum_filter_add (E := 1600000) (N := 100000), sum_filter_single _ n (loop_into dst' hdl n)]
  simp only [hs, hd, hsl, hdl, degR_eq_degK dst dst' hd hdl, hself]
  have hedge : ∑ e ∈ into dst n, lin x W (rowAt (wrap (src e))) f
        * (norm (degK dst (rowAt (wrap (src e)))) * norm (degK dst (rowAt (wrap (dst e)))))
      = ∑ e ∈ into dst n, lin x W (rowAt (wrap (src e))) f
        * (norm (degK dst (rowAt (wrap (src e)))) * norm (degK dst n)) :=
    Finset.sum_congr rfl fun e he => by rw [rowAt_wrap_of_eq (Finset.mem_filter.mp he).2]
  rw [hedge]
  simp only [hlin, hdr]
  exact scale_after_sum (into dst n) (fun e => rowAt (wrap (src e))) (fun v => ∑ k : Fin 128, xr (ix2 v k) * Wr (ix2 f k)) dr n bias

end

end Cert.Layer

end
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.LibVecGatherScatter.lean ====
/-
  Gather and scatter-add of a vector, read at an index.

  For a vector `x : [N]` and a column of integer positions `idx : [E, 1]`:
  * the gather `x[idx]` (result `[E]`) has element `e` equal to `x` at position `idx[e, 0]` — read as a signed integer
    and clamped into `[0, N − 1]`;
  * the scatter-add of updates `upd : [E]` into `x` has element `n` equal to `x n` plus the sum of `upd e` over those `e`
    whose position `idx[e, 0]`, read as a signed integer and NOT clamped, is `n`.
  The position function and the set of contributing `e` are the ones of the row forms (a 2-D array gathered or
  scattered by rows), so a vector and a matrix indexed by the same column are indexed alike.
  General in `N` and `E`.
-/
import Idealize.ShloMosaic.PureOps.Ideal
import Idealize.ShloMosaic.Lib.ValueIdx
import proofs.«136501_j43052752175664_2_alg».proof.Proof.LibRowGatherScatter

noncomputable section

open scoped BigOperators

namespace Cert.Lib.VecGatherScatter

open Idealize.ShloMosaic Idealize.ShloMosaic.ValueIdx Cert.Lib.RowGatherScatter

/-! ## Rank-one indices -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The dimension numbers -/

/-- The gather's dimension numbers for an operand `[N]`, start indices `[E, 1]` and result `[E]`: no offset axis, the
    operand's one axis collapsed and named by the start index; the index vector lies along axis 1 of the start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scatter's dimension numbers for an operand `[N]`, scatter indices `[E, 1]` and updates `[E]`: no window axis,
    the operand's one axis inserted and named by the scatter index. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gather read at an index -/

section Gather
variable {α : Type}

/-- The start-indices index the gather reads for result index `e`: `[e, 0]`. -/
theorem gather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simpa using this

/-- THE GATHER READ AT `e`: the operand at position `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf N hN idx e)) := by
  unfold Host.gather
  congr 1
  funext a; refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    rw [gather_siIdx]
    rfl

end Gather

/-! ## The scatter-add read at an index -/

section Scatter

variable {N E w : Nat} (wf : ScatterDims.WF ⟨1, ![N]⟩ ⟨2, ![E, 1]⟩ ⟨1, ![E]⟩ [] [0] [0] 1)

/-- The scatter-indices index the scatter reads for update index `e`: `[e, 0]`. -/
theorem scatter_siIdx (e : Fin E) (c : Fin (vecScatterDims N E wf).scatterDimsToOperandDims.length) :
    (vecScatterDims N E wf).siIdx (ix1 e) c = ix2 e (0 : Fin 1) := by
  funext b; refine Fin.ext ?_
  match b with
  | ⟨0, _⟩ => rfl
  | ⟨1, _⟩ =>
    have := c.isLt
    show c.val = 0
    simpa using this

/-- The start is the scatter index `idx[e, 0]`, read signed and not clamped. -/
theorem scatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  rw [scatter_siIdx]

/-- The one axis is inserted: no window coordinate. -/
theorem scatter_window0 (e : Fin E) : (vecScatterDims N E wf).window (ix1 e) 0 = 0 := by
  unfold ScatterDims.window
  rw [dif_neg]
  simp [ScatterDims.sKept, Shape.kept]

/-- WHERE AN UPDATE LANDS: update `e` lands on operand element `n` exactly when its scatter index `idx[e, 0]`, read as a
    signed integer, is `n`. -/
theorem resultIdx?_eq_some_iff (idx : IVec ⟨2, ![E, 1]⟩ w) (e : Fin E) (n : Fin N) :
    (vecScatterDims N E wf).resultIdx? (ix1 e) idx = some (ix1 n)
      ↔ (idx (ix2 e (0 : Fin 1))).toInt = (n.val : Int) := by
  rw [resultIdx?_eq_some_iff_forall]
  refine (Fin.forall_fin_one (p := fun a => (vecScatterDims N E wf).start (ix1 e) idx a
    + ((vecScatterDims N E wf).window (ix1 e) a : Int) = (((ix1 n : (⟨1, ![N]⟩ : Shape).Idx) a).val : Int))).trans ?_
  rw [scatter_start0, scatter_window0]
  show (idx (ix2 e (0 : Fin 1))).toInt + ((0 : Nat) : Int) = (n.val : Int) ↔ _
  constructor
  · intro h; omega
  · intro h; omega

/-- THE SCATTER-ADD READ AT `n`: the operand's element plus the sum of the updates `e` whose scatter index `idx[e, 0]`,
    read as a signed integer and not clamped, is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [resultIdx?_eq_some_iff]

end Scatter

/-! ## The same four readings for ANY record with these dimension numbers

A printed program names its dimension records; each is one of the four forms above. Stated over a record `d` and the
equation `d = …Dims …`, the readings apply to the host operation as printed, and the only comparison of records is
that equation, by itself. -/

section AnyRecord

theorem hostGather_vec_apply {α : Type} {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = vecGatherDims N E wf)
    (x : (⟨1, ![N]⟩ : Shape).Idx → α) (idx : IVec ⟨2, ![E, 1]⟩ w) (e : Fin E) :
    Host.gather d x idx (ix1 e) = x (ix1 (rowOf N hN idx e)) := by
  subst hd; exact gather_vec_apply hN wf x idx e

theorem hostGather_rows_apply {α : Type} {N D E w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = rowGatherDims N D E wf)
    (x : (⟨2, ![N, D]⟩ : Shape).Idx → α) (idx : IVec ⟨2, ![E, 1]⟩ w) (e : Fin E) (k : Fin D) :
    Host.gather d x idx (ix2 e k) = x (ix2 (rowOf N hN idx e) k) := by
  subst hd; exact gather_rows_apply hN wf x idx e k

theorem hostScatterAdd_vec_apply {N E w : Nat}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecScatterDims N E wf)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : Int)),
          upd (ix1 e) := by
  subst hd; exact scatterAdd_vec_apply wf x idx upd n

theorem hostScatterAdd_rows_apply {N D E w : Nat}
    (wf : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = rowScatterDims N D E wf)
    (x : FVec Ideal ⟨2, ![N, D]⟩ .f32) (idx : IVec ⟨2, ![E, 1]⟩ w) (upd : FVec Ideal ⟨2, ![E, D]⟩ .f32)
    (n : Fin N) (k : Fin D) :
    Host.scatterAdd (F := Ideal) d x idx upd (ix2 n k)
      = x (ix2 n k) + ∑ e ∈ Finset.univ.filter (fun e : Fin E => (idx (ix2 e (0 : Fin 1))).toInt = (n.val : Int)),
          upd (ix2 e k) := by
  subst hd; exact scatterAdd_rows_apply wf x idx upd n k

end AnyRecord

end Cert.Lib.VecGatherScatter

end
-- ==== Proof.KernelPrefix.lean ====
/-
  What the kernel's program computes on the host BEFORE the region, read at an index.

  It slices the edge array into its source row and its target row; counts, per node, the edges whose target word is
  that node by scattering ones along the target row, and adds one (the self-loop); and takes `deg^(-1/2)` where the
  degree is positive. Read at node `n` these are `Layer.degK` and `Layer.norm` of it, over the target row.
-/
import proofs.«136501_j43052752175664_2_alg».proof.Proof.Gen.KernelIdeal
import proofs.«136501_j43052752175664_2_alg».proof.Proof.Layer
import proofs.«136501_j43052752175664_2_alg».proof.Proof.LibVecGatherScatter
import Idealize.ShloMosaic.Lib.Pipeline.Value
import Idealize.ShloMosaic.Lib.IdealHost

set_option maxRecDepth 16384

noncomputable section

open scoped BigOperators

namespace Cert.KernelPrefix

open Cert.KernelIdeal Cert.KernelIdeal.Gen Cert.Layer Idealize.ShloMosaic Idealize.ShloMosaic.TcCoe Idealize.ShloMosaic.ValueIdx
open Cert.Lib.VecGatherScatter Cert.Lib.RowGatherScatter

/-! ## The host prefix as pure terms -/

/-- The edges' source words, as a vector. -/
def srcVec (x1 : IVec S2x1600000 32) : IVec S1600000 32 :=
  shapeCast S1600000 (extractStridedSlice S1x1600000 ![0, 0] x1 slices_S2x1600000_S1x1600000_0_0) shapeCasts_S1x1600000_S1600000

/-- The edges' target words, as a vector. -/
def dstVec (x1 : IVec S2x1600000 32) : IVec S1600000 32 :=
  shapeCast S1600000 (extractStridedSlice S1x1600000 ![1, 0] x1 slices_S2x1600000_S1x1600000_1_0) shapeCasts_S1x1600000_S1600000

/-- The degrees: ones scattered along the target words into zeros, plus one. -/
def degVec (x1 : IVec S2x1600000 32) : FVec Ideal S100000 .f32 :=
  addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstVec x1))
      (broadcastInDim S1600000 ![] bcast_S_S1600000 (constant (F := Ideal) S_ .f32 0x3F800000#32)))
    (broadcastInDim S100000 ![] bcast_S_S100000 (constant (F := Ideal) S_ .f32 0x3F800000#32))

/-- The normalisations. -/
def disVec (x1 : IVec S2x1600000 32) : FVec Ideal S100000 .f32 :=
  select (cmpf .ogt (degVec x1) (broadcastInDim S100000 ![] bcast_S_S100000 (constant (F := Ideal) S_ .f32 0x00000000#32)))
    (Host.rsqrt (degVec x1))
    (broadcastInDim S100000 ![] bcast_S_S100000 (id (constant (F := Ideal) S_ .f32 0x00000000#32)))

/-- … as a column. -/
def disCol (x1 : IVec S2x1600000 32) : FVec Ideal S100000x1 .f32 :=
  broadcastInDim S100000x1 ![0] bcast_S100000_S100000x1_0 (disVec x1)

/-! ## Read at an index -/

variable (x1 : IVec S2x1600000 32)

/-- The edge list's two rows. -/
abbrev srcW (e : Fin 1600000) : BitVec 32 := x1 (ix2 (0 : Fin 2) e)
abbrev dstW (e : Fin 1600000) : BitVec 32 := x1 (ix2 (1 : Fin 2) e)

theorem srcVec_apply (e : Fin 1600000) : srcVec x1 (ix1 e) = srcW x1 e := by
  unfold srcVec
  refine (shapeCast_apply _ shapeCasts_S1x1600000_S1600000 (ix1 e) (ix2 (0 : Fin 1) e)
    (by rw [Shape.rowMajor_val_two, Shape.rowMajor_val_one]; show 0 * 1600000 + e.val = e.val; omega)).trans ?_
  exact extractStridedSlice_apply ![0, 0] x1 slices_S2x1600000_S1x1600000_0_0 (ix2 (0 : Fin 1) e) (ix2 (0 : Fin 2) e)
    (fun a => match a with
      | ⟨0, _⟩ => by show (0 : Nat) = 0 + 0; rfl
      | ⟨1, _⟩ => by show e.val = 0 + e.val; omega)

theorem dstVec_apply (e : Fin 1600000) : dstVec x1 (ix1 e) = dstW x1 e := by
  unfold dstVec
  refine (shapeCast_apply _ shapeCasts_S1x1600000_S1600000 (ix1 e) (ix2 (0 : Fin 1) e)
    (by rw [Shape.rowMajor_val_two, Shape.rowMajor_val_one]; show 0 * 1600000 + e.val = e.val; omega)).trans ?_
  exact extractStridedSlice_apply ![1, 0] x1 slices_S2x1600000_S1x1600000_1_0 (ix2 (0 : Fin 1) e) (ix2 (1 : Fin 2) e)
    (fun a => match a with
      | ⟨0, _⟩ => by show (1 : Nat) = 1 + 0; rfl
      | ⟨1, _⟩ => by show e.val = 0 + e.val; omega)

/-- A scalar constant broadcast to any shape reads the constant. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply _ h (constant (F := Ideal) S_ .f32 w) j ix0 (fun a => a.elim0)

/-- A vector made a column reads the vector. -/
theorem col_apply {α : Type} (v : S1600000.Idx → α) (e : Fin 1600000) (u : Fin 1) :
    broadcastInDim S1600000x1 ![0] bcast_S1600000_S1600000x1_0 v (ix2 e u) = v (ix1 e) :=
  broadcastInDim_apply _ bcast_S1600000_S1600000x1_0 v (ix2 e u) (ix1 e) (fun a => match a with
    | ⟨0, _⟩ => by show e.val = if (1600000 : Nat) = 1 then 0 else e.val; rw [if_neg (by decide)])

/-- The degree of node `n`. -/
theorem degVec_apply (n : Fin 100000) : degVec x1 (ix1 n) = degK (dstW x1) n := by
  unfold degVec
  rw [addf_apply]
  unfold degK
  refine congrArg₂ (· + ·) ?_ ?_
  · refine (hostScatterAdd_vec_apply (N := 100000) (E := 1600000) scatter_S100000_S1600000x1_S1600000_n_0_0_1.wf
      scatter_S100000_S1600000x1_S1600000_n_0_0_1 rfl _ _ _ n).trans ?_
    refine congrArg₂ (· + ·) ?_ ?_
    · rw [splat_apply]; exact Ideal.ofBits_zero_f32
    · refine Finset.sum_congr (Finset.filter_congr fun e _ => ?_) fun e _ => ?_
      · rw [col_apply, dstVec_apply]
      · rw [splat_apply]; exact Ideal.ofBits_one_f32
  · rw [splat_apply]; exact Ideal.ofBits_one_f32

/-- On the extended reals the float comparison is the order's. -/
theorem cmpf_ideal {φ : FTy} (p : CmpFPredicate) (a b : Ideal φ) : FloatOps.cmpf p a b = Ideal.cmp p a b := rfl

/-- The host's reciprocal square root of a vector, read at an index. -/
theorem hostRsqrt_apply {s : Shape} (v : FVec Ideal s .f32) (i : s.Idx) :
    Host.rsqrt (F := Ideal) v i = Ideal.rsqrt (v i) := rfl

/-- The normalisation of node `n`. -/
theorem disVec_apply (n : Fin 100000) : disVec x1 (ix1 n) = Layer.norm (degK (dstW x1) n) := by
  unfold disVec
  have h0 : broadcastInDim S100000 ![] bcast_S_S100000 (id (constant (F := Ideal) S_ .f32 0x00000000#32)) (ix1 n)
      = Ideal.ofBits .f32 0x00000000#32 := splat_apply bcast_S_S100000 _ (ix1 n)
  rw [select_apply, cmpf_apply, hostRsqrt_apply, degVec_apply, splat_apply, h0, cmpf_ideal, Ideal.ofBits_zero_f32]
  unfold Layer.norm
  rfl

/-- The column of normalisations at node `n`. -/
theorem disCol_apply (n : Fin 100000) (u : Fin 1) : disCol x1 (ix2 n u) = Layer.norm (degK (dstW x1) n) := by
  unfold disCol
  refine (broadcastInDim_apply _ bcast_S100000_S100000x1_0 (disVec x1) (ix2 n u) (ix1 n) (fun a => match a with
    | ⟨0, _⟩ => by show n.val = if (100000 : Nat) = 1 then 0 else n.val; rw [if_neg (by decide)])).trans ?_
  exact disVec_apply x1 n

end Cert.KernelPrefix

end
-- ==== Proof.LibAfterAppend.lean ====
/-
  The host's buffer contents after several stretches of operations.

  `StableHlo.after ops V` folds a list of host operations over the buffer contents `V`. A program whose operations after
  a region come in several stretches (a called function is a stretch of its own) states its tail over the flattened list of
  the stretches; the fold over an append is the fold over the second list from the fold over the first, so the stretches can
  be peeled one at a time and each kept as the literal list it is. General in the topology, the signature and the values.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two stretches of operations are those after the second, from those after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Two stretches, flattened. -/
theorem after_flatten2 (a b : List (HloOp τ sig Val)) (V : Valuation τ sig Val) :
    after (List.flatten [a, b]) V = after b (after a V) := by
  show after (a ++ (b ++ [])) V = _
  rw [after_append, List.append_nil]

/-- Three stretches, flattened. -/
theorem after_flatten3 (a b c : List (HloOp τ sig Val)) (V : Valuation τ sig Val) :
    after (List.flatten [a, b, c]) V = after c (after b (after a V)) := by
  show after (a ++ (b ++ (c ++ []))) V = _
  rw [after_append, after_append, List.append_nil]

/-- Four stretches, flattened. -/
theorem after_flatten4 (a b c d : List (HloOp τ sig Val)) (V : Valuation τ sig Val) :
    after (List.flatten [a, b, c, d]) V = after d (after c (after b (after a V))) := by
  show after (a ++ (b ++ (c ++ (d ++ [])))) V = _
  rw [after_append, after_append, after_append, List.append_nil]

end Cert.LibAfterAppend

end
-- ==== Proof.KernelFound.lean ====
/-
  What the region, and the host operations after it, find in the buffers the host prefix wrote: the two rows of the
  edge array as vectors, and the column of normalisations — each the prefix's pure term of the edge array.
  The prefix comes in three stretches (a called function is a stretch of its own): they are peeled one at a time.
-/
import proofs.«136501_j43052752175664_2_alg».proof.Proof.Gen.KernelIdeal.Frame
import proofs.«136501_j43052752175664_2_alg».proof.Proof.KernelPrefix
import proofs.«136501_j43052752175664_2_alg».proof.Proof.LibAfterAppend
import Idealize.ShloMosaic.Lib.StableHlo.Run

set_option maxRecDepth 16384

noncomputable section

namespace Cert.KernelFound

open Cert.KernelIdeal Cert.KernelIdeal.Gen Cert.KernelPrefix Idealize.ShloMosaic Idealize.ShloMosaic.TcCoe
open Idealize.SL.Sem Idealize.ShloMosaic.StableHlo

variable (m : (ℓ : Loc nD τ sig) → Buf (Elt Ideal) ℓ)

theorem V_src (c : Dev nD) : (V m c main_v1 : IVec S1600000 32) = srcVec (m ((c : Thread nD τ).loc main_arg1)) := by
  dsimp only [V, V0]
  simp only [hostOps0, hostOps0_1, hostOps0_2, List.flatten_cons, List.flatten_nil, List.append_nil, List.cons_append,
    List.nil_append]
  after_results
  rfl

theorem V_dst (c : Dev nD) : (V m c main_v3 : IVec S1600000 32) = dstVec (m ((c : Thread nD τ).loc main_arg1)) := by
  dsimp only [V, V0]
  simp only [hostOps0, hostOps0_1, hostOps0_2, List.flatten_cons, List.flatten_nil, List.append_nil, List.cons_append,
    List.nil_append]
  after_results
  rfl

/-! ## The column of normalisations, stretch by stretch

The host prefix is three stretches: the operations up to the degree's comparison and reciprocal square root; the
outlined `where` (a constant, its broadcast, the select); and the one operation that makes the vector a column. The last
two are read over ANY buffer contents, the first over the launch contents. -/

section Stretches
variable (W : Valuation τ sig (Elt Ideal))

/-- The last stretch: the normalisations made a column. -/
theorem after_col : after (hostOps0_2 (F := Ideal)) W (Proc.devRef .tc main_v14)
    = broadcastInDim S100000x1 ![0] bcast_S100000_S100000x1_0 (W (Proc.devRef .tc main_v13)) := by
  dsimp only [hostOps0_2]
  after_results

/-- The outlined `where`: the select between the reciprocal square roots and a broadcast zero. -/
theorem after_where : after (hostOps0_1 (F := Ideal)) W (Proc.devRef .tc main_v13)
    = select (W (Proc.devRef .tc main_v11)) (W (Proc.devRef .tc main_v12))
        (broadcastInDim S100000 ![] bcast_S_S100000 (id (W (Proc.devRef .tc main_cst_3)))) := by
  dsimp only [hostOps0_1]
  after_results
  rfl

end Stretches

/-- The first stretch leaves the comparison `deg > 0`, -/
theorem found_cmp (c : Dev nD) : after (hostOps0 (F := Ideal)) (fun b => m (c, b)) (Proc.devRef .tc main_v11)
    = cmpf .ogt (degVec (m ((c : Thread nD τ).loc main_arg1)))
        (broadcastInDim S100000 ![] bcast_S_S100000 (constant (F := Ideal) S_ .f32 0x00000000#32)) := by
  unfold degVec dstVec
  dsimp only [hostOps0]
  after_results
  rfl

/-- the reciprocal square roots of the degrees, -/
theorem found_rsqrt (c : Dev nD) : after (hostOps0 (F := Ideal)) (fun b => m (c, b)) (Proc.devRef .tc main_v12)
    = Host.rsqrt (degVec (m ((c : Thread nD τ).loc main_arg1))) := by
  unfold degVec dstVec
  dsimp only [hostOps0]
  after_results
  rfl

/-- and the constant zero. -/
theorem found_zero (c : Dev nD) : after (hostOps0 (F := Ideal)) (fun b => m (c, b)) (Proc.devRef .tc main_cst_3)
    = constant (F := Ideal) S_ .f32 0x00000000#32 := by
  dsimp only [hostOps0]
  after_results

/-- What the region finds in the buffer of normalisations. -/
theorem V_dis (c : Dev nD) : (V m c main_v14 : FVec Ideal S100000x1 .f32) = disCol (m ((c : Thread nD τ).loc main_arg1)) := by
  unfold disCol disVec
  dsimp only [V, V0]
  rw [Cert.LibAfterAppend.after_flatten3, after_col, after_where, found_cmp, found_rsqrt, found_zero]

end Cert.KernelFound

end
-- ==== Proof.KernelTail.lean ====
/-
  The host operations AFTER the region, and the kernel's result read at one entry.

  After the region the program gathers the rows of the kernel's output `HS` at the (wrapped, clamped) source words,
  scatters them along the target words into zeros, adds `HS` itself (the self-loop), scales row `n` by the `n`-th
  normalisation and adds the bias. With `HS(v, f) = lin(v, f) · norm(v)` (`KernelArray.final`) the entry `(n, f)` of
  the result is `Layer.outK`.
-/
import proofs.«136501_j43052752175664_2_alg».proof.Proof.KernelPrefix
import proofs.«136501_j43052752175664_2_alg».proof.Proof.Layer
import proofs.«136501_j43052752175664_2_alg».proof.Proof.LibVecGatherScatter
import Idealize.ShloMosaic.Lib.Pipeline.Value
import Idealize.ShloMosaic.Lib.IdealHost

set_option maxRecDepth 16384

noncomputable section

open scoped BigOperators

namespace Cert.KernelTail

open Cert.KernelIdeal Cert.KernelIdeal.Gen Cert.Layer Cert.KernelPrefix Idealize.ShloMosaic Idealize.ShloMosaic.ValueIdx
open Cert.Lib.VecGatherScatter Cert.Lib.RowGatherScatter

/-- The host tail as a pure function of the kernel's output array, the column of normalisations, the two rows of
    the edge array and the bias. -/
def tailFn (HS : FVec Ideal S100000x32 .f32) (DIS : FVec Ideal S100000x1 .f32) (SRC DST : IVec S1600000 32)
    (B : FVec Ideal S32 .f32) : FVec Ideal S100000x32 .f32 :=
  addf (mulf (broadcastInDim S100000x32 ![0, 1] bcast_S100000x1_S100000x32_0_1 DIS)
      (addf (Host.scatterAdd (F := Ideal) scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 DST)
          (Host.gather gather_S100000x32_S1600000x1_S1600000x32_1_0_n_n_0_1_132 HS
            (broadcastInDim S1600000x1 ![0] bcast_S1600000_S1600000x1_0
              (select (cmpi .slt SRC (broadcastInDim S1600000 ![] bcast_S_S1600000 (constantI S_ 32 0#32)))
                (addi SRC (broadcastInDim S1600000 ![] bcast_S_S1600000 (constantI S_ 32 100000#32))) SRC))))
        HS))
    (broadcastInDim S100000x32 ![0, 1] bcast_S1x32_S100000x32_0_1 (broadcastInDim S1x32 ![1] bcast_S32_S1x32_1 B))

/-- The row a gather reads, over the node range, is `Layer.rowAt` of the index word. -/
theorem rowOf_node {E : Nat} (h : 0 < 100000) (idx : IVec ⟨2, ![E, 1]⟩ 32) (e : Fin E) :
    rowOf 100000 h idx e = rowAt (idx (ix2 e (0 : Fin 1))) := rfl

/-- The wrapped source word, as the tail computes it. -/
theorem wrapVec_apply (SRC : IVec S1600000 32) (e : Fin 1600000) :
    select (cmpi .slt SRC (broadcastInDim S1600000 ![] bcast_S_S1600000 (constantI S_ 32 0#32)))
      (addi SRC (broadcastInDim S1600000 ![] bcast_S_S1600000 (constantI S_ 32 100000#32))) SRC (ix1 e)
      = wrap (SRC (ix1 e)) := rfl

/-- THE TAIL READ AT `(n, f)`. -/
theorem tailFn_apply (HS : FVec Ideal S100000x32 .f32) (DIS : FVec Ideal S100000x1 .f32) (SRC DST : IVec S1600000 32)
    (B : FVec Ideal S32 .f32) (n : Fin 100000) (f : Fin 32) :
    tailFn HS DIS SRC DST B (ix2 n f)
      = DIS (ix2 n (0 : Fin 1)) * (((0 : EReal) + ∑ e ∈ into (fun e => DST (ix1 e)) n,
          HS (ix2 (rowAt (wrap (SRC (ix1 e)))) f)) + HS (ix2 n f)) + B (ix1 f) := by
  unfold tailFn
  rw [addf_apply, mulf_apply, addf_apply]
  refine congrArg₂ (· + ·) (congrArg₂ (· * ·) ?_ (congrArg₂ (· + ·) ?_ rfl)) ?_
  · exact broadcastInDim_apply _ bcast_S100000x1_S100000x32_0_1 DIS (ix2 n f) (ix2 n (0 : Fin 1)) (fun a => match a with
      | ⟨0, _⟩ => by show n.val = if (100000 : Nat) = 1 then 0 else n.val; rw [if_neg (by decide)]
      | ⟨1, _⟩ => by show (0 : Nat) = if (1 : Nat) = 1 then 0 else f.val; rw [if_pos rfl])
  · refine (hostScatterAdd_rows_apply (N := 100000) (D := 32) (E := 1600000)
      scatter_S100000x32_S1600000x1_S1600000x32_1_0_0_1.wf scatter_S100000x32_S1600000x1_S1600000x32_1_0_0_1 rfl _ _ _ n f).trans ?_
    refine congrArg₂ (· + ·) ?_ ?_
    · rw [splat_apply]; exact Ideal.ofBits_zero_f32
    · refine Finset.sum_congr (Finset.filter_congr fun e _ => ?_) fun e _ => ?_
      · rw [col_apply]
      · refine (hostGather_rows_apply (N := 100000) (D := 32) (E := 1600000) (by decide : 0 < 100000)
          gather_S100000x32_S1600000x1_S1600000x32_1_0_n_n_0_1_132.wf gather_S100000x32_S1600000x1_S1600000x32_1_0_n_n_0_1_132 rfl
          HS _ e f).trans ?_
        refine congrArg (fun r => HS (ix2 r f)) ?_
        refine (rowOf_node _ _ e).trans ?_
        rw [col_apply, wrapVec_apply]
  · refine (broadcastInDim_apply _ bcast_S1x32_S100000x32_0_1 _ (ix2 n f) (ix2 (0 : Fin 1) f) (fun a => match a with
      | ⟨0, _⟩ => by show (0 : Nat) = if (1 : Nat) = 1 then 0 else n.val; rw [if_pos rfl]
      | ⟨1, _⟩ => by show f.val = if (32 : Nat) = 1 then 0 else f.val; rw [if_neg (by decide)])).trans ?_
    exact broadcastInDim_apply _ bcast_S32_S1x32_1 B (ix2 (0 : Fin 1) f) (ix1 f) (fun a => match a with
      | ⟨0, _⟩ => by show f.val = if (32 : Nat) = 1 then 0 else f.val; rw [if_neg (by decide)])

/-! ## The kernel's row -/

/-- The kernel's output array, over the prefix's normalisations: the scaled transformed feature. -/
def hsArr (x : FVec Ideal S100000x128 .f32) (W : FVec Ideal S32x128 .f32) (D : FVec Ideal S100000x1 .f32) :
    FVec Ideal S100000x32 .f32 :=
  fun i => (∑ k : Fin 128, x (ix2 ⟨(i 0).val, idx2_lt0 i⟩ k) * W (ix2 ⟨(i 1).val, idx2_lt1 i⟩ k))
    * D (ix2 ⟨(i 0).val, idx2_lt0 i⟩ (0 : Fin 1))

/-- Read at `(v, f)`, over any column. -/
theorem hsArr_ix2 (x : FVec Ideal S100000x128 .f32) (W : FVec Ideal S32x128 .f32) (D : FVec Ideal S100000x1 .f32)
    (v : Fin 100000) (f : Fin 32) : hsArr x W D (ix2 v f) = lin x W v f * D (ix2 v (0 : Fin 1)) := rfl

/-- THE KERNEL'S ROW: the tail over the kernel's output array and the prefix's terms is `Layer.outK`. -/
theorem tail_row (x : FVec Ideal S100000x128 .f32) (W : FVec Ideal S32x128 .f32) (x1 : IVec S2x1600000 32)
    (b : FVec Ideal S32 .f32) (n : Fin 100000) (f : Fin 32) :
    tailFn (hsArr x W (disCol x1)) (disCol x1) (srcVec x1) (dstVec x1) b (ix2 n f)
      = outK x W (b (ix1 f)) (srcW x1) (dstW x1) n f := by
  rw [tailFn_apply]
  unfold outK
  rw [hsArr_ix2, disCol_apply]
  refine congrArg₂ (· + ·) (congrArg₂ (· * ·) rfl (congrArg₂ (· + ·) (congrArg₂ (· + ·) rfl ?_) rfl)) rfl
  refine Finset.sum_congr (Finset.filter_congr fun e _ => by simp only [dstVec_apply]) fun e _ => ?_
  rw [srcVec_apply, hsArr_ix2, disCol_apply]

end Cert.KernelTail

end
-- ==== Proof.KernelRow.lean ====
/-
  The kernel program's result array, and its run.

  The frame run leaves in the result buffer what the host operations after the region compute from the arrays after
  the region: the kernel's output array (`KernelArray.final`: the scaled transformed features), the column of
  normalisations and the two rows of the edge array as the host prefix left them (`KernelFound`), and the bias.
  By `KernelTail.tail_row` that is, entry by entry, `Layer.outK` of the argument arrays.
-/
import proofs.«136501_j43052752175664_2_alg».proof.Proof.KernelArray
import proofs.«136501_j43052752175664_2_alg».proof.Proof.KernelFound
import proofs.«136501_j43052752175664_2_alg».proof.Proof.KernelTail
import Idealize.ShloMosaic.Lib.StableHlo.Run

set_option maxRecDepth 16384

noncomputable section

open scoped BigOperators

namespace Cert.KernelRow

open Cert.KernelIdeal Cert.KernelIdeal.Gen Cert.Layer Cert.KernelPrefix Cert.KernelTail Cert.KernelFound
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ)

/-- The kernel's result array as one function of the argument arrays. -/
def kout (x : FVec Ideal S100000x128 .f32) (x1 : IVec S2x1600000 32) (W : FVec Ideal S32x128 .f32) (b : FVec Ideal S32 .f32) :
    FVec Ideal S100000x32 .f32 :=
  fun i => outK x W (b (ix1 ⟨(i 1).val, idx2_lt1 i⟩)) (srcW x1) (dstW x1) ⟨(i 0).val, idx2_lt0 i⟩ ⟨(i 1).val, idx2_lt1 i⟩

theorem kout_ix2 (x : FVec Ideal S100000x128 .f32) (x1 : IVec S2x1600000 32) (W : FVec Ideal S32x128 .f32)
    (b : FVec Ideal S32 .f32) (n : Fin 100000) (f : Fin 32) :
    kout x x1 W b (ix2 n f) = outK x W (b (ix1 f)) (srcW x1) (dstW x1) n f := rfl

/-- The two spellings of the kernel's output array agree. -/
theorem HS_eq_hsArr (a0 : S100000x128.Idx → Elt Ideal .f32) (a1 : S32x128.Idx → Elt Ideal .f32)
    (a2 : S100000x1.Idx → Elt Ideal .f32) : Cert.KernelArray.HS a0 a1 a2 = hsArr a0 a1 a2 := rfl

/-- The tail over abstract arrays is `kout`, when the arrays are the prefix's terms and the kernel's output. -/
theorem tail_kout (x : FVec Ideal S100000x128 .f32) (x1 : IVec S2x1600000 32) (W : FVec Ideal S32x128 .f32)
    (b : FVec Ideal S32 .f32) :
    tailFn (Cert.KernelArray.HS x W (disCol x1)) (disCol x1) (srcVec x1) (dstVec x1) b = kout x x1 W b := by
  funext i
  obtain ⟨n, f, rfl⟩ : ∃ (n : Fin 100000) (f : Fin 32), i = ix2 n f := ⟨i 0, i 1, eq_ix2 i⟩
  rw [HS_eq_hsArr, kout_ix2]
  exact tail_row x W x1 b n f

/-- What the host operations after the region leave in the result buffer. -/
theorem tail_eq (c : Dev nD) :
    Pipeline.afterTail₀ cfgs (dats m) 0 (V0 m) [hostOps1] c main_v31
      = tailFn ((dats m 0 c).arrAt 3 cfg0.N) (V m c main_v14) (V m c main_v1) (V m c main_v3)
          (m ((c : Thread nD τ).loc main_arg3)) := by
  have hW15 : Pipeline.withArrays (cfgs 0).spec c (V0 m c) (fun w => (dats m 0 c).arrAt w (cfgs 0).N)
      (Proc.devRef .tc main_v15) = (dats m 0 c).arrAt 3 cfg0.N :=
    Pipeline.withArrays_arr spec0 launch0.win.arr_inj c _ _ 3
  have hW14 : Pipeline.withArrays (cfgs 0).spec c (V0 m c) (fun w => (dats m 0 c).arrAt w (cfgs 0).N)
      (Proc.devRef .tc main_v14) = V m c main_v14 :=
    (Pipeline.withArrays_arr spec0 launch0.win.arr_inj c _ _ 2).trans (((dats m 0 c).arrAt_in 2 rfl _).trans (A_eq m c 2))
  have hW1 : Pipeline.withArrays (cfgs 0).spec c (V0 m c) (fun w => (dats m 0 c).arrAt w (cfgs 0).N)
      (Proc.devRef .tc main_v1) = V m c main_v1 :=
    Pipeline.withArrays_of_ne _ c (V0 m c) _ main_v1 (by exact (by decide : ∀ w, Pipeline.arrRef spec0 w ≠ main_v1))
  have hW3 : Pipeline.withArrays (cfgs 0).spec c (V0 m c) (fun w => (dats m 0 c).arrAt w (cfgs 0).N)
      (Proc.devRef .tc main_v3) = V m c main_v3 :=
    Pipeline.withArrays_of_ne _ c (V0 m c) _ main_v3 (by exact (by decide : ∀ w, Pipeline.arrRef spec0 w ≠ main_v3))
  have hWb : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀ tailFn
  show StableHlo.after hostOps1 _ (Proc.devRef .tc main_v31) = _
  after_results_simp
  rw [hW15, hW14, hW1, hW3, hWb]

/-- THE KERNEL'S RESULT ARRAY is `kout` of the argument arrays. -/
theorem result_eq (c : Dev nD) :
    Pipeline.afterTail₀ cfgs (dats m) 0 (V0 m) [hostOps1] c main_v31
      = kout (m ((c : Thread nD τ).loc main_arg0)) (m ((c : Thread nD τ).loc main_arg1))
          (m ((c : Thread nD τ).loc main_arg2)) (m ((c : Thread nD τ).loc main_arg3)) := by
  rw [tail_eq, Cert.KernelArray.final, V_dis, V_src, V_dst, V_main_arg0, V_main_arg2]
  exact tail_kout _ _ _ _

/-- THE KERNEL'S RUN: every weakly fair execution terminates with the result buffer at `kout` of the arguments, and the
    arguments unchanged (the frame run's post, read at the result and at the arguments as the generated frame reads it). -/
theorem run (ρ : Dev nD → PrngReg) :
    θ_run defs (onTc (τ := τ) (main (F := Ideal))) ⟨m, fun _ => 0, ρ⟩ (fun r => ∀ c : Dev nD,
      r.2.mem ((c.tc : Thread nD τ).loc main_v31) = kout (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v31 (Pipeline.mem_restRefs_of main_v31 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelRow

end
-- ==== Proof.RefRow.lean ====
/-
  The reference's result, read at one entry.

  The reference builds its source and target lists by appending the node numbers `0 … 99999` (the self-loops) to the
  two rows of the edge array; counts a degree per node by scattering ones along the target list; normalises it;
  gathers the normalisation at both ends of every entry and the transformed feature row at its source; and scatters the
  products along the target list. Read at entry `(n, f)` this is `Layer.outR` of the two lists: the scatters drop an
  entry whose target word is no node number, the gathers wrap and clamp their index words.
-/
import proofs.«136501_j43052752175664_2_alg».proof.Proof.RefRead
import proofs.«136501_j43052752175664_2_alg».proof.Proof.Layer
import proofs.«136501_j43052752175664_2_alg».proof.Proof.LibRowGatherScatter
import proofs.«136501_j43052752175664_2_alg».proof.Proof.LibVecGatherScatter
import Idealize.ShloMosaic.Lib.IdealHost

noncomputable section

open scoped BigOperators

namespace Cert.RefRow

open Cert.ReferenceIdeal Cert.ReferenceIdeal.ReadP Cert.Layer Idealize.ShloMosaic Idealize.ShloMosaic.ValueIdx
open Cert.Lib.RowGatherScatter Cert.Lib.VecGatherScatter

variable (x0 : (⟨S100000x128, .f32⟩ : BufTy).Contents (Elt Ideal)) (x1 : (⟨S2x1600000, .i32⟩ : BufTy).Contents (Elt Ideal))
  (x2 : (⟨S32x128, .f32⟩ : BufTy).Contents (Elt Ideal)) (x3 : (⟨S32, .f32⟩ : BufTy).Contents (Elt Ideal))

/-- The reference's source list: the edges' sources, then the node numbers. -/
abbrev srcR (e : Fin 1700000) : BitVec 32 := val_main_v3 (F := Ideal) x1 (ix1 e)
/-- The reference's target list: the edges' targets, then the node numbers. -/
abbrev dstR (e : Fin 1700000) : BitVec 32 := val_main_v6 (F := Ideal) x1 (ix1 e)

/-! ## The lists' two stretches -/

theorem srcR_edge (e : Fin 1600000) : srcR x1 (Fin.castAdd 100000 e) = x1 (ix2 (0 : Fin 2) e) := by
  show val_main_v3 (F := Ideal) x1 (ix1 (Fin.castAdd 100000 e)) = _
  unfold val_main_v3
  refine (concatenate_pair_apply_left (t := S1700000) (s₁ := S1600000) (s₂ := S100000) (0 : Fin 1) (val_main_v2 (F := Ideal) x1) (val_main_v0 (F := Ideal))
    Gen.concatenates_S1600000_S100000_S1700000_d0 (ix1 (Fin.castAdd 100000 e)) rfl (ix1 e) (fun b => by match b with | ⟨0, _⟩ => rfl)).trans ?_
  rw [val_main_v2_apply, val_main_v1_apply]
  refine congrArg x1 (funext fun a => Fin.ext ?_)
  match a with
  | ⟨0, _⟩ => rfl
  | ⟨1, _⟩ => exact Nat.mod_eq_of_lt e.isLt

theorem dstR_edge (e : Fin 1600000) : dstR x1 (Fin.castAdd 100000 e) = x1 (ix2 (1 : Fin 2) e) := by
  show val_main_v6 (F := Ideal) x1 (ix1 (Fin.castAdd 100000 e)) = _
  unfold val_main_v6
  refine (concatenate_pair_apply_left (t := S1700000) (s₁ := S1600000) (s₂ := S100000) (0 : Fin 1) (val_main_v5 (F := Ideal) x1) (val_main_v0 (F := Ideal))
    Gen.concatenates_S1600000_S100000_S1700000_d0 (ix1 (Fin.castAdd 100000 e)) rfl (ix1 e) (fun b => by match b with | ⟨0, _⟩ => rfl)).trans ?_
  rw [val_main_v5_apply, val_main_v4_apply]
  refine congrArg x1 (funext fun a => Fin.ext ?_)
  match a with
  | ⟨0, _⟩ => rfl
  | ⟨1, _⟩ => exact Nat.mod_eq_of_lt e.isLt

theorem srcR_loop (j : Fin 100000) : srcR x1 (Fin.natAdd 1600000 j) = BitVec.ofNat 32 j.val := by
  show val_main_v3 (F := Ideal) x1 (ix1 (Fin.natAdd 1600000 j)) = _
  unfold val_main_v3
  refine (concatenate_pair_apply_right (t := S1700000) (s₁ := S1600000) (s₂ := S100000) (0 : Fin 1) (val_main_v2 (F := Ideal) x1) (val_main_v0 (F := Ideal))
    Gen.concatenates_S1600000_S100000_S1700000_d0 (ix1 (Fin.natAdd 1600000 j)) rfl rfl (ix1 j) (fun b hb => by match b with | ⟨0, _⟩ => exact absurd rfl hb)
    (by show j.val + 1600000 = 1600000 + j.val; omega)).trans ?_
  rfl

theorem dstR_loop (j : Fin 100000) : dstR x1 (Fin.natAdd 1600000 j) = BitVec.ofNat 32 j.val := by
  show val_main_v6 (F := Ideal) x1 (ix1 (Fin.natAdd 1600000 j)) = _
  unfold val_main_v6
  refine (concatenate_pair_apply_right (t := S1700000) (s₁ := S1600000) (s₂ := S100000) (0 : Fin 1) (val_main_v5 (F := Ideal) x1) (val_main_v0 (F := Ideal))
    Gen.concatenates_S1600000_S100000_S1700000_d0 (ix1 (Fin.natAdd 1600000 j)) rfl rfl (ix1 j) (fun b hb => by match b with | ⟨0, _⟩ => exact absurd rfl hb)
    (by show j.val + 1600000 = 1600000 + j.val; omega)).trans ?_
  rfl

/-- The row a gather reads, over the node range, is `Layer.rowAt` of the index word. -/
theorem rowOf_node {E : Nat} (h : 0 < 100000) (idx : IVec ⟨2, ![E, 1]⟩ 32) (e : Fin E) :
    rowOf 100000 h idx e = rowAt (idx (ix2 e (0 : Fin 1))) := rfl

/-! ## The stages, read at an index -/

/-- The degree: the entries of the target list that are node `r`, counted from zero. -/
theorem deg_apply (r : Fin 100000) : val_main_v10 (F := Ideal) x1 (ix1 r) = degR (dstR x1) r := by
  unfold val_main_v10
  refine (hostScatterAdd_vec_apply (N := 100000) (E := 1700000) scatter_S100000_S1700000x1_S1700000_n_0_0_1.wf
    scatter_S100000_S1700000x1_S1700000_n_0_0_1 rfl (val_main_v8 (F := Ideal)) (val_main_v9 (F := Ideal) x1)
    (val_main_v7 (F := Ideal)) r).trans ?_
  unfold degR
  refine congrArg₂ (· + ·) ?_ ?_
  · rw [val_main_v8_apply, val_main_cst_0_apply]; exact Ideal.ofBits_zero_f32
  · refine Finset.sum_congr (Finset.filter_congr fun e _ => ?_) fun e _ => ?_
    · rw [val_main_v9_apply]
      have h : idx_main_v9 (ix2 e (0 : Fin 1)) = ix1 e := funext fun a => by match a with | ⟨0, _⟩ => rfl
      rw [h]
    · rw [val_main_v7_apply, val_main_cst_apply]; exact Ideal.ofBits_one_f32

/-- On the extended reals the float comparison is the order's. -/
theorem cmpf_ideal {φ : FTy} (p : CmpFPredicate) (a b : Ideal φ) : FloatOps.cmpf p a b = Ideal.cmp p a b := rfl

/-- The normalisation of node `r`. -/
theorem dis_apply (r : Fin 100000) : val_main_v14 (F := Ideal) x1 (ix1 r) = norm (degR (dstR x1) r) := by
  rw [val_main_v14_apply, val_main_v12_apply, val_main_v13_apply, deg_apply, val_main_v11_apply, val_main_cst_1_apply,
    val_main_call0_v1_apply, val_main_call0_v0_apply, val_main_cst_2_apply]
  unfold Layer.norm
  simp only [Ideal.ofBits_def, Ideal.ofBits_zero_f32, cmpf_ideal, Ideal.hostUnary_rsqrt_def]

/-- The wrapped source word (for the gather of the normalisations). -/
theorem wrap_src (e : Fin 1700000) : val_main_v19 (F := Ideal) x1 (ix1 e) = wrap (srcR x1 e) := by
  rw [val_main_v19_apply, val_main_v16_apply, val_main_v18_apply, val_main_v15_apply, val_main_c_apply,
    val_main_v17_apply, val_main_c_3_apply]
  rfl

/-- The wrapped target word. -/
theorem wrap_dst (e : Fin 1700000) : val_main_v26 (F := Ideal) x1 (ix1 e) = wrap (dstR x1 e) := by
  rw [val_main_v26_apply, val_main_v23_apply, val_main_v25_apply, val_main_v22_apply, val_main_c_4_apply,
    val_main_v24_apply, val_main_c_5_apply]
  rfl

/-- The wrapped source word (for the gather of the feature rows). -/
theorem wrap_src' (e : Fin 1700000) : val_main_v36 (F := Ideal) x1 (ix1 e) = wrap (srcR x1 e) := by
  rw [val_main_v36_apply, val_main_v33_apply, val_main_v35_apply, val_main_v32_apply, val_main_c_6_apply,
    val_main_v34_apply, val_main_c_7_apply]
  rfl

/-- The normalisation gathered at an entry's source. -/
theorem disSrc_apply (e : Fin 1700000) :
    val_main_v21 (F := Ideal) x1 (ix1 e) = norm (degR (dstR x1) (rowAt (wrap (srcR x1 e)))) := by
  unfold val_main_v21
  refine (hostGather_vec_apply (N := 100000) (E := 1700000) (by decide : 0 < 100000)
    gather_S100000_S1700000x1_S1700000_n_0_n_n_0_1_1.wf gather_S100000_S1700000x1_S1700000_n_0_n_n_0_1_1 rfl
    (val_main_v14 (F := Ideal) x1) (val_main_v20 (F := Ideal) x1) e).trans ?_
  have hrow : rowOf 100000 (by decide) (val_main_v20 (F := Ideal) x1) e = rowAt (wrap (srcR x1 e)) := by
    refine (rowOf_node _ (val_main_v20 (F := Ideal) x1) e).trans ?_
    rw [val_main_v20_apply]
    have h : idx_main_v20 (ix2 e (0 : Fin 1)) = ix1 e := funext fun a => by match a with | ⟨0, _⟩ => rfl
    rw [h, wrap_src]
  rw [hrow, dis_apply]

/-- The normalisation gathered at an entry's target. -/
theorem disDst_apply (e : Fin 1700000) :
    val_main_v28 (F := Ideal) x1 (ix1 e) = norm (degR (dstR x1) (rowAt (wrap (dstR x1 e)))) := by
  unfold val_main_v28
  refine (hostGather_vec_apply (N := 100000) (E := 1700000) (by decide : 0 < 100000)
    gather_S100000_S1700000x1_S1700000_n_0_n_n_0_1_1.wf gather_S100000_S1700000x1_S1700000_n_0_n_n_0_1_1 rfl
    (val_main_v14 (F := Ideal) x1) (val_main_v27 (F := Ideal) x1) e).trans ?_
  have hrow : rowOf 100000 (by decide) (val_main_v27 (F := Ideal) x1) e = rowAt (wrap (dstR x1 e)) := by
    refine (rowOf_node _ (val_main_v27 (F := Ideal) x1) e).trans ?_
    rw [val_main_v27_apply]
    have h : idx_main_v27 (ix2 e (0 : Fin 1)) = ix1 e := funext fun a => by match a with | ⟨0, _⟩ => rfl
    rw [h, wrap_dst]
  rw [hrow, dis_apply]

/-- The transformed feature `f` of node `r`. -/
theorem lin_apply (r : Fin 100000) (f : Fin 32) : val_main_v31 (F := Ideal) x0 x2 (ix2 r f) = lin x0 x2 r f := by
  rw [val_main_v31_apply]
  unfold lin
  refine Finset.sum_congr rfl fun k _ => ?_
  rw [val_main_v30_apply]
  have h1 : lidx_main_v31 (ix2 r f) k = ix2 r k := funext fun a => by match a with | ⟨0, _⟩ => rfl | ⟨1, _⟩ => rfl
  have h2 : idx_main_v30 (ridx_main_v31 (ix2 r f) k) = ix2 f k :=
    funext fun a => by match a with | ⟨0, _⟩ => rfl | ⟨1, _⟩ => rfl
  rw [h1, h2]

/-! ## The row -/

/-- THE REFERENCE'S RESULT AT `(n, f)` is the reference's row of its two lists. -/
theorem row_apply (n : Fin 100000) (f : Fin 32) :
    val_main_v47 (F := Ideal) x0 x1 x2 x3 (ix2 n f) = outR x0 x2 (x3 (ix1 f)) (srcR x1) (dstR x1) n f := by
  rw [val_main_v47_apply]
  unfold outR
  rw [Ideal.addf_def]
  refine congrArg₂ (· + ·) ?_ ?_
  · unfold val_main_v44
    refine (hostScatterAdd_rows_apply (N := 100000) (D := 32) (E := 1700000)
      scatter_S100000x32_S1700000x1_S1700000x32_1_0_0_1.wf scatter_S100000x32_S1700000x1_S1700000x32_1_0_0_1 rfl
      (val_main_v42 (F := Ideal)) (val_main_v43 (F := Ideal) x1) (val_main_v41 (F := Ideal) x0 x1 x2) n f).trans ?_
    refine congrArg₂ (· + ·) ?_ ?_
    · rw [val_main_v42_apply, val_main_cst_8_apply]; exact Ideal.ofBits_zero_f32
    · refine Finset.sum_congr (Finset.filter_congr fun e _ => ?_) fun e _ => ?_
      · rw [val_main_v43_apply]
        have h : idx_main_v43 (ix2 e (0 : Fin 1)) = ix1 e := funext fun a => by match a with | ⟨0, _⟩ => rfl
        rw [h]
      · rw [val_main_v41_apply]
        rw [Ideal.mulf_def]
        refine congrArg₂ (· * ·) ?_ ?_
        · unfold val_main_v38
          refine (hostGather_rows_apply (N := 100000) (D := 32) (E := 1700000) (by decide : 0 < 100000)
            gather_S100000x32_S1700000x1_S1700000x32_1_0_n_n_0_1_132.wf gather_S100000x32_S1700000x1_S1700000x32_1_0_n_n_0_1_132 rfl
            (val_main_v31 (F := Ideal) x0 x2) (val_main_v37 (F := Ideal) x1) e f).trans ?_
          have hrow : rowOf 100000 (by decide) (val_main_v37 (F := Ideal) x1) e = rowAt (wrap (srcR x1 e)) := by
            refine (rowOf_node _ (val_main_v37 (F := Ideal) x1) e).trans ?_
            rw [val_main_v37_apply]
            have h : idx_main_v37 (ix2 e (0 : Fin 1)) = ix1 e := funext fun a => by match a with | ⟨0, _⟩ => rfl
            rw [h, wrap_src']
          rw [hrow, lin_apply]
        · rw [val_main_v40_apply, val_main_v39_apply]
          have h : idx_main_v39 (idx_main_v40 (ix2 e f)) = ix1 e := funext fun a => by match a with | ⟨0, _⟩ => rfl
          rw [h, val_main_v29_apply, disSrc_apply, disDst_apply]
          rfl
  · rw [val_main_v46_apply, val_main_v45_apply]
    exact congrArg x3 (funext fun a => by match a with | ⟨0, _⟩ => rfl)

end Cert.RefRow

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.FiniteInputs.lean ====
/-
  The precondition, read back: every entry of `x` and of `W` is a real number.

  The precondition is the conjunction of three tests `all(|a| < +∞)`, one per float input; on the extended reals
  `|v| < +∞` says exactly that `v` is a real number (`LibFiniteReal.real_of_all`). The bias's conjunct is not used.
-/
import proofs.«136501_j43052752175664_2_alg».proof.Pre_finite_inputs
import proofs.«136501_j43052752175664_2_alg».proof.Proof.LibFiniteReal
import Idealize.ShloMosaic.Lib.Affine

noncomputable section

namespace Cert.FiniteInputs

open Idealize.ShloMosaic Idealize.ShloMosaic.ValueIdx Cert.Pre_finite_inputs

variable [hF : Cert.Pre_finite_inputs.Facts]

/-- Under the precondition `x` and `W` have real entries. -/
theorem real_of_pre (x : FVec Ideal S100000x128 .f32) (ei : IVec S2x1600000 32) (W : FVec Ideal S32x128 .f32)
    (b : FVec Ideal S32 .f32) (h : Cert.Pre_finite_inputs.fn (F := Ideal) x ei W b = fun _ => 1#1) :
    (∀ i, ∃ r : ℝ, x i = r) ∧ (∀ i, ∃ r : ℝ, W i = r) := by
  have h0 := congrFun h ix0
  dsimp only [Cert.Pre_finite_inputs.fn] at h0
  obtain ⟨h01, _⟩ := IntOp.andi_eq_one.mp h0
  obtain ⟨hx, hW⟩ := IntOp.andi_eq_one.mp h01
  exact ⟨fun i => Cert.FiniteReal.real_of_all x _ _ _ hx i, fun i => Cert.FiniteReal.real_of_all W _ _ _ hW i⟩

end Cert.FiniteInputs

end
-- ==== Proof.lean ====
/-
  A one-layer graph convolution (GCN) over 100000 nodes and 1600000 edges: the kernel's program against its jnp
  reference, equal on the extended reals under finite `x` and `W`.

  Both programs compute, for node `n` and output feature `f`,
      out(n, f) = ∑_{edges e into n} h(src e, f) · norm(src e) · norm(n)  +  h(n, f) · norm(n)²  +  bias(f),
  with `h = x · Wᵀ` and `norm(v) = deg(v)^(-1/2)`, `deg(v)` = (edges into `v`) + 1.
  * The reference appends one self-loop per node to the edge list, counts degrees along the longer list, gathers
    `norm` at both ends of every entry and `h` at its source, and scatters the products along the targets.
  * The kernel's program counts the edges and adds one; multiplies, on the matrix unit and block by block of 5000
    rows, `x` by `Wᵀ` and scales row `v` by `norm(v)` (the pallas_call); then gathers those scaled rows over the
    edges only, scatters them, adds the scaled row of `n` itself, and scales the total by `norm(n)` once.
  The two agree by distributivity of a real factor over a finite sum (`GcnLaw.scale_after_sum`, `Layer.outK_eq_outR`):
  the degrees are positive reals whatever the edge words are, and `h` is real because `x` and `W` are finite. Edge
  words that are no node number are treated alike by both programs: a scatter drops them, a gather wraps and clamps
  them. The modules: `Layer` (the two rows and their equality), `RefRow` (the reference read at an entry),
  `KernelBody` / `KernelArray` (the pallas_call's output array), `KernelPrefix` / `KernelFound` / `KernelTail` /
  `KernelRow` (the host operations around it, and the kernel program's run), `FiniteInputs` (the precondition).
-/
import proofs.«136501_j43052752175664_2_alg».proof.Defs
import proofs.«136501_j43052752175664_2_alg».proof.Proof.Gen.Kernel
import proofs.«136501_j43052752175664_2_alg».proof.Proof.Gen.Kernel.Skeleton
import proofs.«136501_j43052752175664_2_alg».proof.Proof.Gen.Kernel.Launch
import proofs.«136501_j43052752175664_2_alg».proof.Proof.Gen.Kernel.Points
import proofs.«136501_j43052752175664_2_alg».proof.Proof.Gen.Kernel.Frame
import proofs.«136501_j43052752175664_2_alg».proof.Proof.Gen.KernelIdeal
import proofs.«136501_j43052752175664_2_alg».proof.Proof.Gen.KernelIdeal.Skeleton
import proofs.«136501_j43052752175664_2_alg».proof.Proof.Gen.KernelIdeal.Launch
import proofs.«136501_j43052752175664_2_alg».proof.Proof.Gen.KernelIdeal.Points
import proofs.«136501_j43052752175664_2_alg».proof.Proof.Gen.KernelIdeal.Frame
import proofs.«136501_j43052752175664_2_alg».proof.Proof.Gen.ReferenceIdeal
import proofs.«136501_j43052752175664_2_alg».proof.Proof.Gen.Pre_finite_inputs
import proofs.«136501_j43052752175664_2_alg».proof.Proof.KernelRow
import proofs.«136501_j43052752175664_2_alg».proof.Proof.RefRow
import proofs.«136501_j43052752175664_2_alg».proof.Proof.FiniteInputs
import Idealize.ShloMosaic.Adequacy
import Idealize.ShloMosaic.Init

noncomputable section

namespace Cert.Proof

open Idealize.ShloMosaic Idealize.ShloMosaic.ValueIdx Idealize.SL.Sem

/-! ## The three frames and the idealization -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-! ## The two results are one function -/

/-- The reference's result array is the kernel's function of the same argument arrays, for real `x` and `W`: entry by
    entry the reference's row of its two lists against the kernel's row of the edge array's two rows. -/
theorem ref_eq_kout (x0 : FVec Ideal Cert.KernelIdeal.S100000x128 .f32) (x1 : IVec Cert.KernelIdeal.S2x1600000 32)
    (x2 : FVec Ideal Cert.KernelIdeal.S32x128 .f32) (x3 : FVec Ideal Cert.KernelIdeal.S32 .f32)
    (hx : ∀ i, ∃ r : ℝ, x0 i = r) (hW : ∀ i, ∃ r : ℝ, x2 i = r) :
    Cert.ReferenceIdeal.ReadP.val_main_v47 (F := Ideal) x0 x1 x2 x3 = Cert.KernelRow.kout x0 x1 x2 x3 := by
  funext i
  obtain ⟨n, f, rfl⟩ : ∃ (n : Fin 100000) (f : Fin 32), i = ix2 n f := ⟨i 0, i 1, eq_ix2 i⟩
  rw [Cert.RefRow.row_apply, Cert.KernelRow.kout_ix2]
  exact (Cert.Layer.outK_eq_outR x0 x2 (x3 (ix1 f)) (Cert.KernelPrefix.srcW x1) (Cert.KernelPrefix.dstW x1)
    (Cert.RefRow.srcR x1) (Cert.RefRow.dstR x1) (Cert.RefRow.srcR_edge x1) (Cert.RefRow.srcR_loop x1)
    (Cert.RefRow.dstR_edge x1) (Cert.RefRow.dstR_loop x1) hx hW n f).symm

/-! ## The value claim -/

/-- At the ideal instance, from memories agreeing on the arguments, the kernel's program ends with its result buffer at
    `kout` of the arguments (`KernelRow.run`) and the reference with its result at its composed term of the same
    arguments, which is `kout` of them as well because `x` and `W` are finite (`ref_eq_kout`). -/
theorem algebraic : Cert.algebraic_KernelIdeal_ReferenceIdeal := by
  intro m ρ m' ρ' hpre hagree
  refine ⟨fun c => Cert.KernelRow.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelRow.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, (hagree c).1, (hagree c).2.1, (hagree c).2.2.1, (hagree c).2.2.2]
  obtain ⟨hx, hW⟩ := Cert.FiniteInputs.real_of_pre _ _ _ _ (hpre c)
  exact ref_eq_kout _ _ _ _ hx hW

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
